-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x512x512 : Shape := ⟨4, ![4, 3, 512, 512]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel

variable [Facts]

def fn {F : FTy → Type} [FloatOps F] (main_arg0 : FVec F S4x3x512x512 .f32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  main_v3
-- ==== Kernel.lean ====
abbrev S4x3x512x512 : Shape := ⟨4, ![4, 3, 512, 512]⟩
abbrev S12x512x512 : Shape := ⟨3, ![12, 512, 512]⟩
abbrev S_ : Shape := ⟨0, ![]⟩
abbrev S12x516x516 : Shape := ⟨3, ![12, 516, 516]⟩
abbrev S12x24x512x512 : Shape := ⟨4, ![12, 24, 512, 512]⟩
abbrev S1x516x516 : Shape := ⟨3, ![1, 516, 516]⟩
abbrev S1x8x512x512 : Shape := ⟨4, ![1, 8, 512, 512]⟩
abbrev S516x516 : Shape := ⟨2, ![516, 516]⟩
abbrev S512x512 : Shape := ⟨2, ![512, 512]⟩
abbrev S1x1x512x512 : Shape := ⟨4, ![1, 1, 512, 512]⟩
abbrev S4x3x24x512x512 : Shape := ⟨5, ![4, 3, 24, 512, 512]⟩

abbrev nBuf : Space → Nat
  | .hbm => 7
  | .vmem => 4
  | .smem => 0
  | _ => 0

abbrev bufTy : (tb : Table) → Fin (tcTables nBuf tb) → BufTy
  | .hbm, ⟨0, _⟩ => ⟨S4x3x512x512, .f32⟩
  | .hbm, ⟨1, _⟩ => ⟨S12x512x512, .f32⟩
  | .hbm, ⟨2, _⟩ => ⟨S_, .i32⟩
  | .hbm, ⟨3, _⟩ => ⟨S_, .f32⟩
  | .hbm, ⟨4, _⟩ => ⟨S12x516x516, .f32⟩
  | .hbm, ⟨5, _⟩ => ⟨S12x24x512x512, .f32⟩
  | .hbm, ⟨6, _⟩ => ⟨S4x3x24x512x512, .f32⟩
  | .local _ .vmem, ⟨0, _⟩ => ⟨S1x516x516, .f32⟩
  | .local _ .vmem, ⟨1, _⟩ => ⟨S1x516x516, .f32⟩
  | .local _ .vmem, ⟨2, _⟩ => ⟨S1x8x512x512, .f32⟩
  | .local _ .vmem, ⟨3, _⟩ => ⟨S1x8x512x512, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_2 : BitVec 32 := 0#32
  let v5 : BitVec 1 := Scalar.cmpi .ne v4 c0_i32_2
  v5

def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x516x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S4x3x512x512_S12x512x512 : S4x3x512x512.ShapeCasts S12x512x512
  pads_S12x512x512_S12x516x516_000_220_220 : S12x512x512.Pads (![0, 2, 2] : Fin 3 → Nat) ![0, 2, 2] ![0, 0, 0] S12x516x516
  h_S_ : 0 < S_.numel
  inb_S1x516x516_S1x516x516_0_0_0 : ∀ a, (![0, 0, 0] : Fin 3 → Nat) a + S1x516x516.size a ≤ S1x516x516.size a
  h_S1x516x516 : 0 < S1x516x516.numel
  shapeCasts_S1x516x516_S516x516 : S1x516x516.ShapeCasts S516x516
  slices_S516x516_o2_2_S512x512 : S516x516.Slices ![2, 2] S512x512
  slices_S516x516_o0_0_S512x512 : S516x516.Slices ![0, 0] S512x512
  inb_S1x8x512x512_S1x1x512x512_0_0_0_0 : ∀ a, (![0, 0, 0, 0] : Fin 4 → Nat) a + S1x1x512x512.size a ≤ S1x8x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  slices_S516x516_o0_1_S512x512 : S516x516.Slices ![0, 1] S512x512
  inb_S1x8x512x512_S1x1x512x512_0_1_0_0 : ∀ a, (![0, 1, 0, 0] : Fin 4 → Nat) a + S1x1x512x512.size a ≤ S1x8x512x512.size a
  slices_S516x516_o0_2_S512x512 : S516x516.Slices ![0, 2] S512x512
  inb_S1x8x512x512_S1x1x512x512_0_2_0_0 : ∀ a, (![0, 2, 0, 0] : Fin 4 → Nat) a + S1x1x512x512.size a ≤ S1x8x512x512.size a
  slices_S516x516_o0_3_S512x512 : S516x516.Slices ![0, 3] S512x512
  inb_S1x8x512x512_S1x1x512x512_0_3_0_0 : ∀ a, (![0, 3, 0, 0] : Fin 4 → Nat) a + S1x1x512x512.size a ≤ S1x8x512x512.size a
  slices_S516x516_o0_4_S512x512 : S516x516.Slices ![0, 4] S512x512
  inb_S1x8x512x512_S1x1x512x512_0_4_0_0 : ∀ a, (![0, 4, 0, 0] : Fin 4 → Nat) a + S1x1x512x512.size a ≤ S1x8x512x512.size a
  slices_S516x516_o1_0_S512x512 : S516x516.Slices ![1, 0] S512x512
  inb_S1x8x512x512_S1x1x512x512_0_5_0_0 : ∀ a, (![0, 5, 0, 0] : Fin 4 → Nat) a + S1x1x512x512.size a ≤ S1x8x512x512.size a
  slices_S516x516_o1_1_S512x512 : S516x516.Slices ![1, 1] S512x512
  inb_S1x8x512x512_S1x1x512x512_0_6_0_0 : ∀ a, (![0, 6, 0, 0] : Fin 4 → Nat) a + S1x1x512x512.size a ≤ S1x8x512x512.size a
  slices_S516x516_o1_2_S512x512 : S516x516.Slices ![1, 2] S512x512
  inb_S1x8x512x512_S1x1x512x512_0_7_0_0 : ∀ a, (![0, 7, 0, 0] : Fin 4 → Nat) a + S1x1x512x512.size a ≤ S1x8x512x512.size a
  slices_S516x516_o1_3_S512x512 : S516x516.Slices ![1, 3] S512x512
  slices_S516x516_o1_4_S512x512 : S516x516.Slices ![1, 4] S512x512
  slices_S516x516_o2_0_S512x512 : S516x516.Slices ![2, 0] S512x512
  slices_S516x516_o2_1_S512x512 : S516x516.Slices ![2, 1] S512x512
  slices_S516x516_o2_3_S512x512 : S516x516.Slices ![2, 3] S512x512
  slices_S516x516_o2_4_S512x512 : S516x516.Slices ![2, 4] S512x512
  slices_S516x516_o3_0_S512x512 : S516x516.Slices ![3, 0] S512x512
  slices_S516x516_o3_1_S512x512 : S516x516.Slices ![3, 1] S512x512
  slices_S516x516_o3_2_S512x512 : S516x516.Slices ![3, 2] S512x512
  slices_S516x516_o3_3_S512x512 : S516x516.Slices ![3, 3] S512x512
  slices_S516x516_o3_4_S512x512 : S516x516.Slices ![3, 4] S512x512
  slices_S516x516_o4_0_S512x512 : S516x516.Slices ![4, 0] S512x512
  slices_S516x516_o4_1_S512x512 : S516x516.Slices ![4, 1] S512x512
  slices_S516x516_o4_2_S512x512 : S516x516.Slices ![4, 2] S512x512
  slices_S516x516_o4_3_S512x512 : S516x516.Slices ![4, 3] S512x512
  slices_S516x516_o4_4_S512x512 : S516x516.Slices ![4, 4] S512x512
  shapeCasts_S12x24x512x512_S4x3x24x512x512 : S12x24x512x512.ShapeCasts S4x3x24x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x516x516.size a ≤ S12x516x516.size a
  hwx0_0 : ∀ i : grid0.Coords, EltTy.bits .f32 = 32 ∨ (Rect.block (s := S12x516x516) S1x516x516.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512x512.size a ≤ S12x24x512x512.size a
  hwx0_1 : ∀ i : grid0.Coords, EltTy.bits .f32 = 32 ∨ (Rect.block (s := S12x24x512x512) S1x8x512x512.size (cc0_transform_1 i) (hinb0_1 i)).WholeWords (EltTy.packing .f32)

variable [Facts₀]

abbrev win0_0 : Pipeline.Window sig grid0 :=
  Pipeline.Window.ofSpec (Memref.whole main_v1) S1x516x516.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) | ⟨_ + 2, h⟩ => absurd h (Nat.not_lt.2 (Nat.le_add_left _ _))

class Facts : Prop extends Facts₀ where

variable [Facts]
-- ==== ReferenceIdeal.lean ====
abbrev S4x3x512x512 : Shape := ⟨4, ![4, 3, 512, 512]⟩
abbrev S_ : Shape := ⟨0, ![]⟩
abbrev S4x3x516x516 : Shape := ⟨4, ![4, 3, 516, 516]⟩
abbrev S4x3x1x512x512 : Shape := ⟨5, ![4, 3, 1, 512, 512]⟩
abbrev S4x3x16x512x512 : Shape := ⟨5, ![4, 3, 16, 512, 512]⟩
abbrev S4x3x8x512x512 : Shape := ⟨5, ![4, 3, 8, 512, 512]⟩
abbrev S4x3x24x512x512 : Shape := ⟨5, ![4, 3, 24, 512, 512]⟩

abbrev nBuf : Space → Nat
  | .hbm => 64
  | .vmem => 0
  | .smem => 0
  | _ => 0

abbrev bufTy : (tb : Table) → Fin (tcTables nBuf tb) → BufTy
  | .hbm, ⟨0, _⟩ => ⟨S4x3x512x512, .f32⟩
  | .hbm, ⟨1, _⟩ => ⟨S_, .i32⟩
  | .hbm, ⟨2, _⟩ => ⟨S_, .f32⟩
  | .hbm, ⟨3, _⟩ => ⟨S4x3x516x516, .f32⟩
  | .hbm, ⟨4, _⟩ => ⟨S4x3x512x512, .f32⟩
  | .hbm, ⟨5, _⟩ => ⟨S4x3x512x512, .f32⟩
  | .hbm, ⟨6, _⟩ => ⟨S4x3x512x512, .f32⟩
  | .hbm, ⟨7, _⟩ => ⟨S4x3x512x512, .f32⟩
  | .hbm, ⟨8, _⟩ => ⟨S4x3x512x512, .f32⟩
  | .hbm, ⟨9, _⟩ => ⟨S4x3x512x512, .f32⟩
  | .hbm, ⟨10, _⟩ => ⟨S4x3x512x512, .f32⟩
  | .hbm, ⟨11, _⟩ => ⟨S4x3x512x512, .f32⟩
  | .hbm, ⟨12, _⟩ => ⟨S4x3x512x512, .f32⟩
  | .hbm, ⟨13, _⟩ => ⟨S4x3x512x512, .f32⟩
  | .hbm, ⟨14, _⟩ => ⟨S4x3x512x512, .f32⟩
  | .hbm, ⟨15, _⟩ => ⟨S4x3x512x512, .f32⟩
  | .hbm, ⟨16, _⟩ => ⟨S4x3x512x512, .f32⟩
  | .hbm, ⟨17, _⟩ => ⟨S4x3x512x512, .f32⟩
  | .hbm, ⟨18, _⟩ => ⟨S4x3x512x512, .f32⟩
  | .hbm, ⟨19, _⟩ => ⟨S4x3x512x512, .f32⟩
  | .hbm, ⟨20, _⟩ => ⟨S4x3x512x512, .f32⟩
  | .hbm, ⟨21, _⟩ => ⟨S4x3x512x512, .f32⟩
  | .hbm, ⟨22, _⟩ => ⟨S4x3x512x512, .f32⟩
  | .hbm, ⟨23, _⟩ => ⟨S4x3x512x512, .f32⟩
  | .hbm, ⟨24, _⟩ => ⟨S4x3x512x512, .f32⟩
  | .hbm, ⟨25, _⟩ => ⟨S4x3x512x512, .f32⟩
  | .hbm, ⟨26, _⟩ => ⟨S4x3x512x512, .f32⟩
  | .hbm, ⟨27, _⟩ => ⟨S4x3x512x512, .f32⟩
  | .hbm, ⟨28, _⟩ => ⟨S4x3x1x512x512, .f32⟩
  | .hbm, ⟨29, _⟩ => ⟨S4x3x1x512x512, .f32⟩
  | .hbm, ⟨30, _⟩ => ⟨S4x3x1x512x512, .f32⟩
  | .hbm, ⟨31, _⟩ => ⟨S4x3x1x512x512, .f32⟩
  | .hbm, ⟨32, _⟩ => ⟨S4x3x1x512x512, .f32⟩
  | .hbm, ⟨33, _⟩ => ⟨S4x3x1x512x512, .f32⟩
  | .hbm, ⟨34, _⟩ => ⟨S4x3x1x512x512, .f32⟩
  | .hbm, ⟨35, _⟩ => ⟨S4x3x1x512x512, .f32⟩
  | .hbm, ⟨36, _⟩ => ⟨S4x3x1x512x512, .f32⟩
  | .hbm, ⟨37, _⟩ => ⟨S4x3x1x512x512, .f32⟩
  | .hbm, ⟨38, _⟩ => ⟨S4x3x1x512x512, .f32⟩
  | .hbm, ⟨39, _⟩ => ⟨S4x3x1x512x512, .f32⟩
  | .hbm, ⟨40, _⟩ => ⟨S4x3x1x512x512, .f32⟩
  | .hbm, ⟨41, _⟩ => ⟨S4x3x1x512x512, .f32⟩
  | .hbm, ⟨42, _⟩ => ⟨S4x3x1x512x512, .f32⟩
  | .hbm, ⟨43, _⟩ => ⟨S4x3x1x512x512, .f32⟩
  | .hbm, ⟨44, _⟩ => ⟨S4x3x1x512x512, .f32⟩
  | .hbm, ⟨45, _⟩ => ⟨S4x3x1x512x512, .f32⟩
  | .hbm, ⟨46, _⟩ => ⟨S4x3x1x512x512, .f32⟩
  | .hbm, ⟨47, _⟩ => ⟨S4x3x1x512x512, .f32⟩
  | .hbm, ⟨48, _⟩ => ⟨S4x3x1x512x512, .f32⟩
  | .hbm, ⟨49, _⟩ => ⟨S4x3x1x512x512, .f32⟩
  | .hbm, ⟨50, _⟩ => ⟨S4x3x1x512x512, .f32⟩
  | .hbm, ⟨51, _⟩ => ⟨S4x3x1x512x512, .f32⟩
  | .hbm, ⟨52, _⟩ => ⟨S4x3x16x512x512, .f32⟩
  | .hbm, ⟨53, _⟩ => ⟨S4x3x8x512x512, .f32⟩
  | .hbm, ⟨54, _⟩ => ⟨S4x3x24x512x512, .f32⟩
  | .hbm, ⟨55, _⟩ => ⟨S4x3x1x512x512, .f32⟩
  | .hbm, ⟨56, _⟩ => ⟨S4x3x24x512x512, .f32⟩
  | .hbm, ⟨57, _⟩ => ⟨S4x3x24x512x512, .f32⟩
  | .hbm, ⟨58, _⟩ => ⟨S4x3x24x512x512, .f32⟩
  | .hbm, ⟨59, _⟩ => ⟨S4x3x24x512x512, .f32⟩
  | .hbm, ⟨60, _⟩ => ⟨S_, .f32⟩
  | .hbm, ⟨61, _⟩ => ⟨S4x3x24x512x512, .f32⟩
  | .hbm, ⟨62, _⟩ => ⟨S4x3x24x512x512, .f32⟩
  | .hbm, ⟨63, _⟩ => ⟨S4x3x24x512x512, .f32⟩
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_cst : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩

abbrev nD : Nat := 1
abbrev τ : Topo := Topo.v7x

variable {F : FTy → Type} [FloatOps F]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  slices_S4x3x516x516_S4x3x512x512_0_0_0_0 : S4x3x516x516.Slices ![0, 0, 0, 0] S4x3x512x512
  slices_S4x3x516x516_S4x3x512x512_0_0_0_1 : S4x3x516x516.Slices ![0, 0, 0, 1] S4x3x512x512
  slices_S4x3x516x516_S4x3x512x512_0_0_0_2 : S4x3x516x516.Slices ![0, 0, 0, 2] S4x3x512x512
  slices_S4x3x516x516_S4x3x512x512_0_0_0_3 : S4x3x516x516.Slices ![0, 0, 0, 3] S4x3x512x512
  slices_S4x3x516x516_S4x3x512x512_0_0_0_4 : S4x3x516x516.Slices ![0, 0, 0, 4] S4x3x512x512
  slices_S4x3x516x516_S4x3x512x512_0_0_1_0 : S4x3x516x516.Slices ![0, 0, 1, 0] S4x3x512x512
  slices_S4x3x516x516_S4x3x512x512_0_0_1_1 : S4x3x516x516.Slices ![0, 0, 1, 1] S4x3x512x512
  slices_S4x3x516x516_S4x3x512x512_0_0_1_2 : S4x3x516x516.Slices ![0, 0, 1, 2] S4x3x512x512
  slices_S4x3x516x516_S4x3x512x512_0_0_1_3 : S4x3x516x516.Slices ![0, 0, 1, 3] S4x3x512x512
  slices_S4x3x516x516_S4x3x512x512_0_0_1_4 : S4x3x516x516.Slices ![0, 0, 1, 4] S4x3x512x512
  slices_S4x3x516x516_S4x3x512x512_0_0_2_0 : S4x3x516x516.Slices ![0, 0, 2, 0] S4x3x512x512
  slices_S4x3x516x516_S4x3x512x512_0_0_2_1 : S4x3x516x516.Slices ![0, 0, 2, 1] S4x3x512x512
  slices_S4x3x516x516_S4x3x512x512_0_0_2_3 : S4x3x516x516.Slices ![0, 0, 2, 3] S4x3x512x512
  slices_S4x3x516x516_S4x3x512x512_0_0_2_4 : S4x3x516x516.Slices ![0, 0, 2, 4] S4x3x512x512
  slices_S4x3x516x516_S4x3x512x512_0_0_3_0 : S4x3x516x516.Slices ![0, 0, 3, 0] S4x3x512x512
  slices_S4x3x516x516_S4x3x512x512_0_0_3_1 : S4x3x516x516.Slices ![0, 0, 3, 1] S4x3x512x512
  slices_S4x3x516x516_S4x3x512x512_0_0_3_2 : S4x3x516x516.Slices ![0, 0, 3, 2] S4x3x512x512
  slices_S4x3x516x516_S4x3x512x512_0_0_3_3 : S4x3x516x516.Slices ![0, 0, 3, 3] S4x3x512x512
  slices_S4x3x516x516_S4x3x512x512_0_0_3_4 : S4x3x516x516.Slices ![0, 0, 3, 4] S4x3x512x512
  slices_S4x3x516x516_S4x3x512x512_0_0_4_0 : S4x3x516x516.Slices ![0, 0, 4, 0] S4x3x512x512
  slices_S4x3x516x516_S4x3x512x512_0_0_4_1 : S4x3x516x516.Slices ![0, 0, 4, 1] S4x3x512x512
  slices_S4x3x516x516_S4x3x512x512_0_0_4_2 : S4x3x516x516.Slices ![0, 0, 4, 2] S4x3x512x512
  slices_S4x3x516x516_S4x3x512x512_0_0_4_3 : S4x3x516x516.Slices ![0, 0, 4, 3] S4x3x512x512
  slices_S4x3x516x516_S4x3x512x512_0_0_4_4 : S4x3x516x516.Slices ![0, 0, 4, 4] S4x3x512x512
  bcast_S4x3x512x512_S4x3x1x512x512_0_1_3_4 : S4x3x512x512.BroadcastsInDim S4x3x1x512x512 (![0, 1, 3, 4] : Fin 4 → Fin S4x3x1x512x512.rank)
  concatenates_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x16x512x512_d2 : Shape.Concatenates [S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512, S4x3x1x512x512] S4x3x16x512x512 2
  concatenates_S4x3x1x512x512_S4x3x1x512x512_S4x3x1x512x512_S4x3x1x512x512_S4x3x1x512x512_S4x3x1x512x512_S4x3x1x512x512_S4x3x1x512x512_S4x3x8x512x512_d2 : Shape.Concatenates [S4x3x1x512x512, S4x3x1x512x512, S4x3x1x512x512, S4x3x1x512x512, S4x3x1x512x512, S4x3x1x512x512, S4x3x1x512x512, S4x3x1x512x512] S4x3x8x512x512 2
  concatenates_S4x3x16x512x512_S4x3x8x512x512_S4x3x24x512x512_d2 : Shape.Concatenates [S4x3x16x512x512, S4x3x8x512x512] S4x3x24x512x512 2
  bcast_S4x3x1x512x512_S4x3x24x512x512_0_1_2_3_4 : S4x3x1x512x512.BroadcastsInDim S4x3x24x512x512 (![0, 1, 2, 3, 4] : Fin 5 → Fin S4x3x24x512x512.rank)
  bcast_S_S4x3x24x512x512 : S_.BroadcastsInDim S4x3x24x512x512 (![] : Fin 0 → Fin S4x3x24x512x512.rank)

variable [Facts₀]

class Facts : Prop extends Facts₀ where

variable [Facts]
-- ==== Proof.Spec.lean ====
/-
  The function both programs compute, index by index.

  The input is an image stack x : [4,3,512,512]; P is x with a border of width 2 added around its two last axes
  ([4,3,516,516]; what the border holds does not matter here). A 5×5 stencil without its centre has 24 taps; tap k sits
  at row (pos k)/5 and column (pos k)%5 of the stencil, where pos skips the centre (position 12). The result at
  (b, ch, k, h, w) is exp(-(P(b,ch,h+row k,w+col k) - x(b,ch,h,w))² · ½): a Gaussian weight of the difference between
  the neighbour under tap k and the centre pixel. `Gk` is the same function over a stack whose two leading axes are merged
  (12 = 4·3 images) and whose centre pixel is read from the bordered image itself, at (h + 2, w + 2).
-/
import Idealize.ShloMosaic.PureOps.Ideal
import Idealize.ShloMosaic.Lib.ValueIdx

noncomputable section

namespace Cert.GaussSpec

open Idealize.ShloMosaic Idealize.ShloMosaic.ValueIdx

/-- Position in the 5×5 stencil of tap `k`: the centre (position 12) is skipped. -/
def pos (k : ℕ) : ℕ := if k < 12 then k else k + 1

/-- The stencil row of tap `k`. -/
def tapRow (k : ℕ) : ℕ := pos k / 5

/-- The stencil column of tap `k`. -/
def tapCol (k : ℕ) : ℕ := pos k % 5

theorem tapRow_lt {k : ℕ} (hk : k < 24) : tapRow k < 5 := by
  unfold tapRow pos; split <;> omega

theorem tapCol_lt (k : ℕ) : tapCol k < 5 := by
  unfold tapCol; omega

/-- The Gaussian weight of two values: exp(-(a - b)² · ½), the half being the f32 word 0.5. -/
def weight (a b : EReal) : EReal :=
  Ideal.exp (-((a - b) * (a - b)) * Ideal.ofBits .f32 0x3F000000#32)

/-- The image stack, the bordered image stack, the result. -/
abbrev SX : Shape := ⟨4, ![4, 3, 512, 512]⟩
abbrev SP : Shape := ⟨4, ![4, 3, 516, 516]⟩
abbrev SK : Shape := ⟨5, ![4, 3, 24, 512, 512]⟩

/-- The bordered image's pixel under tap `k` at (h, w): (h + row k, w + col k). -/
def nbr (b : Fin 4) (ch : Fin 3) (k : Fin 24) (h w : Fin 512) : SP.Idx :=
  ix4 b ch ⟨h.val + tapRow k.val, by have := tapRow_lt k.isLt; omega⟩ ⟨w.val + tapCol k.val, by have := tapCol_lt k.val; omega⟩

/-- The result: at (b, ch, k, h, w) the weight of the neighbour under tap `k` against the centre pixel. -/
def G (P : SP.Idx → EReal) (x : SX.Idx → EReal) (i : SK.Idx) : EReal :=
  weight (P (nbr (i 0) (i 1) (i 2) (i 3) (i 4))) (x (ix4 (i 0) (i 1) (i 3) (i 4)))

theorem G_ix5 (P : SP.Idx → EReal) (x : SX.Idx → EReal) (b : Fin 4) (ch : Fin 3) (k : Fin 24) (h w : Fin 512) :
    G P x (ix5 b ch k h w) = weight (P (nbr b ch k h w)) (x (ix4 b ch h w)) := rfl

/-- The same stack with its two leading axes merged (12 = 4·3 images): the bordered stack and the result. -/
abbrev SP12 : Shape := ⟨3, ![12, 516, 516]⟩
abbrev SX12 : Shape := ⟨3, ![12, 512, 512]⟩
abbrev SK12 : Shape := ⟨4, ![12, 24, 512, 512]⟩

/-- The result over the merged axis, as ONE function of the bordered stack `P` : [12,516,516]: at (bc, k, h, w) the weight
    of P(bc, h + row k, w + col k) against P(bc, h + 2, w + 2) — the centre pixel is the bordered image's own centre crop. -/
def Gk (P : SP12.Idx → EReal) (j : SK12.Idx) : EReal :=
  weight
    (P (ix3 (j 0)
      (⟨(j 2).val + tapRow (j 1).val, by
        have h1 : (j 1).val < 24 := (j 1).isLt
        have h2 : (j 2).val < 512 := (j 2).isLt
        have := tapRow_lt h1
        omega⟩ : Fin 516)
      (⟨(j 3).val + tapCol (j 1).val, by
        have h3 : (j 3).val < 512 := (j 3).isLt
        have := tapCol_lt (j 1).val
        omega⟩ : Fin 516)))
    (P (ix3 (j 0)
      (⟨(j 2).val + 2, by have h2 : (j 2).val < 512 := (j 2).isLt; omega⟩ : Fin 516)
      (⟨(j 3).val + 2, by have h3 : (j 3).val < 512 := (j 3).isLt; omega⟩ : Fin 516)))

end Cert.GaussSpec

end
-- ==== Proof.Tap.lean ====
/-
  One tap of the kernel body, read at an index.

  For each tap the body takes the 512×512 window of the bordered 516×516 tile at the tap's offset, subtracts the centre
  tile, squares, negates by subtracting from zero, halves, exponentiates, and stores the result as a [1,1,512,512] piece.
  Over the extended reals `0 - y = -y` for every y (infinite or not), so at (0, 0, h, w) the piece is the Gaussian weight of
  the bordered tile at (h, w) shifted by the offset against the centre tile at (h, w).
-/
import proofs.«158847_j1580547974542_1_alg».proof.Proof.Spec
import Idealize.ShloMosaic.Lib.Pipeline.Value
import Idealize.ShloMosaic.PureOps.Ideal.Laws

noncomputable section

namespace Cert.GaussSpec

open Idealize.ShloMosaic Idealize.ShloMosaic.ValueIdx

/-- The bordered tile, the centre tile, one stored piece. -/
abbrev S516 : Shape := ⟨2, ![516, 516]⟩
abbrev S512 : Shape := ⟨2, ![512, 512]⟩
abbrev S11 : Shape := ⟨4, ![1, 1, 512, 512]⟩

/-- One tap of the body as an array: from the bordered tile `v1` and the centre tile `v2`, the slice of `v1` at offset
    `off`, less `v2`, squared, negated (as `0 - ·`), halved, exponentiated, stored as a [1,1,512,512] piece. -/
def tapVec (off : Fin 2 → ℕ) (v1 : FVec Ideal S516 .f32) (v2 : FVec Ideal S512 .f32) (hs : S516.Slices off S512)
    (hc : S512.ShapeCasts S11) : FVec Ideal S11 .f32 :=
  shapeCast S11 (exp (mulf (subf (broadcast S512 (Scalar.ofBits .f32 0x00000000#32))
    (mulf (subf (extractStridedSlice S512 off v1 hs) v2) (subf (extractStridedSlice S512 off v1 hs) v2)))
    (broadcast S512 (Scalar.ofBits .f32 0x3F000000#32)))) hc

/-- A tap at (0, 0, h, w) is the weight of the bordered tile at (h, w) shifted by the tap's offset against the centre tile
    at (h, w): over the extended reals `0 - y = -y`. -/
theorem tapVec_apply (off : Fin 2 → ℕ) (v1 : FVec Ideal S516 .f32) (v2 : FVec Ideal S512 .f32) (hs : S516.Slices off S512)
    (hc : S512.ShapeCasts S11) (h w : Fin 512) (kH kW : Fin 516) (hH : kH.val = off 0 + h.val) (hW : kW.val = off 1 + w.val) :
    tapVec off v1 v2 hs hc (ix4 (0 : Fin 1) (0 : Fin 1) h w) = weight (v1 (ix2 kH kW)) (v2 (ix2 h w)) := by
  unfold tapVec
  refine (shapeCast_apply _ hc (ix4 (0 : Fin 1) (0 : Fin 1) h w) (ix2 h w) ?_).trans ?_
  · rw [Shape.rowMajor_val_two, Shape.rowMajor_val_four]
    show h.val * 512 + w.val = ((0 * 1 + 0) * 512 + h.val) * 512 + w.val
    omega
  · have e : extractStridedSlice S512 off v1 hs (ix2 h w) = v1 (ix2 kH kW) :=
      extractStridedSlice_apply off v1 hs (ix2 h w) (ix2 kH kW) (fun a => match a with
        | ⟨0, _⟩ => hH
        | ⟨1, _⟩ => hW)
    show Ideal.exp ((Ideal.ofBits .f32 0x00000000#32
        - (extractStridedSlice S512 off v1 hs (ix2 h w) - v2 (ix2 h w)) * (extractStridedSlice S512 off v1 hs (ix2 h w) - v2 (ix2 h w)))
        * Ideal.ofBits .f32 0x3F000000#32) = _
    rw [e, Ideal.ofBits_zero_f32, zero_sub]
    rfl

end Cert.GaussSpec

end
-- ==== Proof.KernelBlock.lean ====
/-
  What the kernel body leaves in one output block.

  A grid point (bc, g) holds the bordered 516×516 tile of image bc and an output block [1,8,512,512]. In tap group g the
  body stores eight [1,1,512,512] pieces, piece j at tap position j of the block, holding tap 8g + j: the Gaussian weight of
  the tile's 512×512 window at that tap's stencil offset against the tile's centre crop (offset (2,2)). The eight pieces
  tile the block, and each restricts one function of the block index (`blockFn`), so the block is that function.
-/
import proofs.«158847_j1580547974542_1_alg».proof.Proof.Gen.KernelIdeal.Frame
import proofs.«158847_j1580547974542_1_alg».proof.Proof.Tap
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.GaussSpec

theorem hz3 : (![0, 0, 0] : Fin 3 → Nat) = fun _ => 0 := funext fun a => by fin_cases a <;> rfl

/-- What one grid point leaves in its [1,8,512,512] output block, from its [1,516,516] bordered tile `x0`: in tap group
    `g`, entry (0, j, h, w) is the weight of the tile under tap 8g + j against the tile's centre crop (offset 2, 2). -/
def blockFn (g : Fin 3) (x0 : Vec Ideal S1x516x516 .f32) (y : S1x8x512x512.Idx) : EReal :=
  weight
    (x0 (ix3 (0 : Fin 1)
      (⟨(y 2).val + tapRow (8 * g.val + (y 1).val), by
        have h1 : (y 1).val < 8 := (y 1).isLt
        have h2 : (y 2).val < 512 := (y 2).isLt
        have := tapRow_lt (k := 8 * g.val + (y 1).val) (by omega)
        omega⟩ : Fin 516)
      (⟨(y 3).val + tapCol (8 * g.val + (y 1).val), by
        have h3 : (y 3).val < 512 := (y 3).isLt
        have := tapCol_lt (8 * g.val + (y 1).val)
        omega⟩ : Fin 516)))
    (x0 (ix3 (0 : Fin 1)
      (⟨(y 2).val + 2, by have h2 : (y 2).val < 512 := (y 2).isLt; omega⟩ : Fin 516)
      (⟨(y 3).val + 2, by have h3 : (y 3).val < 512 := (y 3).isLt; omega⟩ : Fin 516)))

/-- The tile without its unit axis, read at (H, W). -/
theorem pay1_apply (x0 : Vec Ideal S1x516x516 .f32) (H W : Fin 516) :
    k0_pay1 (F := Ideal) x0 (ix2 H W) = x0 (ix3 (0 : Fin 1) H W) := by
  unfold k0_pay1
  exact shapeCast_apply x0 shapeCasts_S1x516x516_S516x516 (ix2 H W) (ix3 (0 : Fin 1) H W) (by
    rw [Shape.rowMajor_val_three, Shape.rowMajor_val_two]
    show (0 * 516 + H.val) * 516 + W.val = H.val * 516 + W.val
    omega)

/-- The centre crop of the tile, read at (h, w): the tile at (h + 2, w + 2). -/
theorem pay2_apply (x0 : Vec Ideal S1x516x516 .f32) (h w : Fin 512) :
    k0_pay2 (F := Ideal) x0 (ix2 h w) = x0 (ix3 (0 : Fin 1) (⟨h.val + 2, by omega⟩ : Fin 516) (⟨w.val + 2, by omega⟩ : Fin 516)) := by
  unfold k0_pay2
  refine (extractStridedSlice_apply ![2, 2] (k0_pay1 (F := Ideal) x0) slices_S516x516_o2_2_S512x512 (ix2 h w)
    (ix2 (⟨h.val + 2, by omega⟩ : Fin 516) (⟨w.val + 2, by omega⟩ : Fin 516)) (fun a => match a with
      | ⟨0, _⟩ => by show h.val + 2 = 2 + h.val; omega
      | ⟨1, _⟩ => by show w.val + 2 = 2 + w.val; omega)).trans ?_
  exact pay1_apply x0 _ _

/-- ONE STORED PIECE restricts the block function: the piece stored at tap position `jj` of the block in group `g`, whose
    payload `pl` is the tap at offset (r, c) = (row, column) of tap 8g + jj, agrees at each of its indices with the block
    function at the block index under it. -/
theorem piece_eq (g : Fin 3) (jj r c : ℕ) (hjj : jj < 8) (hr : tapRow (8 * g.val + jj) = r) (hc : tapCol (8 * g.val + jj) = c)
    (x0 : Vec Ideal S1x516x516 .f32) (pl : FVec Ideal S1x1x512x512 .f32)
    (hs : S516x516.Slices ![r, c] S512x512) (hcast : S512x512.ShapeCasts S1x1x512x512)
    (hpl : pl = tapVec ![r, c] (k0_pay1 (F := Ideal) x0) (k0_pay2 (F := Ideal) x0) hs hcast)
    (inb : ∀ a, (![0, jj, 0, 0] : Fin 4 → ℕ) a + S1x1x512x512.size a ≤ S1x8x512x512.size a)
    (x : S1x1x512x512.Idx) :
    pl x = blockFn g x0 ((Rect.unit (s := S1x8x512x512) ![0, jj, 0, 0] S1x1x512x512.size inb).emb x) := by
  subst hpl
  obtain ⟨u0, u1, h, w, rfl⟩ : ∃ (u0 u1 : Fin 1) (h w : Fin 512), x = ix4 u0 u1 h w := ⟨x 0, x 1, x 2, x 3, eq_ix4 x⟩
  obtain rfl : u0 = 0 := Subsingleton.elim _ _
  obtain rfl : u1 = 0 := Subsingleton.elim _ _
  have hr5 : r < 5 := by rw [← hr]; exact tapRow_lt (by have := g.isLt; omega)
  have hc5 : c < 5 := by rw [← hc]; exact tapCol_lt _
  rw [tapVec_apply ![r, c] _ _ hs hcast h w (⟨r + h.val, by omega⟩ : Fin 516) (⟨c + w.val, by omega⟩ : Fin 516) rfl rfl,
    pay1_apply, pay2_apply]
  unfold blockFn
  refine congrArg₂ weight (congrArg x0 ?_) (congrArg x0 ?_)
  · funext a
    apply Fin.ext
    match a with
    | ⟨0, _⟩ => rfl
    | ⟨1, _⟩ =>
      show r + h.val = (0 + 1 * h.val) + tapRow (8 * g.val + (jj + 1 * 0))
      rw [show jj + 1 * 0 = jj from by omega, hr]; omega
    | ⟨2, _⟩ =>
      show c + w.val = (0 + 1 * w.val) + tapCol (8 * g.val + (jj + 1 * 0))
      rw [show jj + 1 * 0 = jj from by omega, hc]; omega
  · funext a
    apply Fin.ext
    match a with
    | ⟨0, _⟩ => rfl
    | ⟨1, _⟩ => show h.val + 2 = (0 + 1 * h.val) + 2; omega
    | ⟨2, _⟩ => show w.val + 2 = (0 + 1 * w.val) + 2; omega

/-- In the first group of taps (grid coordinate 1 equal to 0) the body leaves in the output block the weights of taps
    0 … 7: its eight stores tile the block along the tap axis, and store j holds tap 0 + j. -/
theorem out_A (c : Dev nD) (i : grid0.Coords) (arg2 : Memref sig .tc .vmem S1x516x516 .f32) (harg2 : arg2.IsWhole)
    (arg3 : Memref sig .tc .vmem S1x8x512x512 .f32) (harg3 : arg3.IsWhole) (hc0 : cond0_0 i) (hc1 : ¬cond0_1 i) (hc2 : ¬cond0_2 i)
    (x0 : Vec Ideal S1x516x516 .f32) :
    out0_A_1 (F := Ideal) c i arg2 harg2 arg3 harg3 hc0 hc1 hc2 x0 = blockFn 0 x0 := by
  unfold out0_A_1
  rw [View.read_writes_eq_canon _ _ _ (cover0_A_1 c i arg2 harg2 arg3 harg3 hc0 hc1 hc2 x0)]
  funext y
  refine View.canon_apply_of_pieces (blockFn 0 x0) _ ?_ y (cover0_A_1 c i arg2 harg2 arg3 harg3 hc0 hc1 hc2 x0 y)
  unfold kernelRun0_A
  dsimp only
  sl_unfold_words
  simp only [View.readAt_eq_ld, harg2.read_unread, View.ld_unit_zero (S := S1x516x516) hz3]
  intro p hp
  simp only [List.mem_cons, List.mem_nil_iff, or_false] at hp
  rcases hp with rfl | rfl | rfl | rfl | rfl | rfl | rfl | rfl
  · exact piece_eq 0 7 1 2 (by omega) (by decide) (by decide) x0 _ _ _ rfl inb_S1x8x512x512_S1x1x512x512_0_7_0_0
  · exact piece_eq 0 6 1 1 (by omega) (by decide) (by decide) x0 _ _ _ rfl inb_S1x8x512x512_S1x1x512x512_0_6_0_0
  · exact piece_eq 0 5 1 0 (by omega) (by decide) (by decide) x0 _ _ _ rfl inb_S1x8x512x512_S1x1x512x512_0_5_0_0
  · exact piece_eq 0 4 0 4 (by omega) (by decide) (by decide) x0 _ _ _ rfl inb_S1x8x512x512_S1x1x512x512_0_4_0_0
  · exact piece_eq 0 3 0 3 (by omega) (by decide) (by decide) x0 _ _ _ rfl inb_S1x8x512x512_S1x1x512x512_0_3_0_0
  · exact piece_eq 0 2 0 2 (by omega) (by decide) (by decide) x0 _ _ _ rfl inb_S1x8x512x512_S1x1x512x512_0_2_0_0
  · exact piece_eq 0 1 0 1 (by omega) (by decide) (by decide) x0 _ _ _ rfl inb_S1x8x512x512_S1x1x512x512_0_1_0_0
  · exact piece_eq 0 0 0 0 (by omega) (by decide) (by decide) x0 _ _ _ rfl inb_S1x8x512x512_S1x1x512x512_0_0_0_0

/-- In the second group of taps (grid coordinate 1 equal to 1) the body leaves in the output block the weights of taps
    8 … 15: its eight stores tile the block along the tap axis, and store j holds tap 8 + j. -/
theorem out_B (c : Dev nD) (i : grid0.Coords) (arg2 : Memref sig .tc .vmem S1x516x516 .f32) (harg2 : arg2.IsWhole)
    (arg3 : Memref sig .tc .vmem S1x8x512x512 .f32) (harg3 : arg3.IsWhole) (hc0 : ¬cond0_0 i) (hc1 : cond0_1 i) (hc2 : ¬cond0_2 i)
    (x0 : Vec Ideal S1x516x516 .f32) :
    out0_B_1 (F := Ideal) c i arg2 harg2 arg3 harg3 hc0 hc1 hc2 x0 = blockFn 1 x0 := by
  unfold out0_B_1
  rw [View.read_writes_eq_canon _ _ _ (cover0_B_1 c i arg2 harg2 arg3 harg3 hc0 hc1 hc2 x0)]
  funext y
  refine View.canon_apply_of_pieces (blockFn 1 x0) _ ?_ y (cover0_B_1 c i arg2 harg2 arg3 harg3 hc0 hc1 hc2 x0 y)
  unfold kernelRun0_B
  dsimp only
  sl_unfold_words
  simp only [View.readAt_eq_ld, harg2.read_unread, View.ld_unit_zero (S := S1x516x516) hz3]
  intro p hp
  simp only [List.mem_cons, List.mem_nil_iff, or_false] at hp
  rcases hp with rfl | rfl | rfl | rfl | rfl | rfl | rfl | rfl
  · exact piece_eq 1 7 3 1 (by omega) (by decide) (by decide) x0 _ _ _ rfl inb_S1x8x512x512_S1x1x512x512_0_7_0_0
  · exact piece_eq 1 6 3 0 (by omega) (by decide) (by decide) x0 _ _ _ rfl inb_S1x8x512x512_S1x1x512x512_0_6_0_0
  · exact piece_eq 1 5 2 4 (by omega) (by decide) (by decide) x0 _ _ _ rfl inb_S1x8x512x512_S1x1x512x512_0_5_0_0
  · exact piece_eq 1 4 2 3 (by omega) (by decide) (by decide) x0 _ _ _ rfl inb_S1x8x512x512_S1x1x512x512_0_4_0_0
  · exact piece_eq 1 3 2 1 (by omega) (by decide) (by decide) x0 _ _ _ rfl inb_S1x8x512x512_S1x1x512x512_0_3_0_0
  · exact piece_eq 1 2 2 0 (by omega) (by decide) (by decide) x0 _ _ _ rfl inb_S1x8x512x512_S1x1x512x512_0_2_0_0
  · exact piece_eq 1 1 1 4 (by omega) (by decide) (by decide) x0 _ _ _ rfl inb_S1x8x512x512_S1x1x512x512_0_1_0_0
  · exact piece_eq 1 0 1 3 (by omega) (by decide) (by decide) x0 _ _ _ rfl inb_S1x8x512x512_S1x1x512x512_0_0_0_0

/-- In the third group of taps (grid coordinate 1 equal to 2) the body leaves in the output block the weights of taps
    16 … 23: its eight stores tile the block along the tap axis, and store j holds tap 16 + j. -/
theorem out_C (c : Dev nD) (i : grid0.Coords) (arg2 : Memref sig .tc .vmem S1x516x516 .f32) (harg2 : arg2.IsWhole)
    (arg3 : Memref sig .tc .vmem S1x8x512x512 .f32) (harg3 : arg3.IsWhole) (hc0 : ¬cond0_0 i) (hc1 : ¬cond0_1 i) (hc2 : cond0_2 i)
    (x0 : Vec Ideal S1x516x516 .f32) :
    out0_C_1 (F := Ideal) c i arg2 harg2 arg3 harg3 hc0 hc1 hc2 x0 = blockFn 2 x0 := by
  unfold out0_C_1
  rw [View.read_writes_eq_canon _ _ _ (cover0_C_1 c i arg2 harg2 arg3 harg3 hc0 hc1 hc2 x0)]
  funext y
  refine View.canon_apply_of_pieces (blockFn 2 x0) _ ?_ y (cover0_C_1 c i arg2 harg2 arg3 harg3 hc0 hc1 hc2 x0 y)
  unfold kernelRun0_C
  dsimp only
  sl_unfold_words
  simp only [View.readAt_eq_ld, harg2.read_unread, View.ld_unit_zero (S := S1x516x516) hz3]
  intro p hp
  simp only [List.mem_cons, List.mem_nil_iff, or_false] at hp
  rcases hp with rfl | rfl | rfl | rfl | rfl | rfl | rfl | rfl
  · exact piece_eq 2 7 4 4 (by omega) (by decide) (by decide) x0 _ _ _ rfl inb_S1x8x512x512_S1x1x512x512_0_7_0_0
  · exact piece_eq 2 6 4 3 (by omega) (by decide) (by decide) x0 _ _ _ rfl inb_S1x8x512x512_S1x1x512x512_0_6_0_0
  · exact piece_eq 2 5 4 2 (by omega) (by decide) (by decide) x0 _ _ _ rfl inb_S1x8x512x512_S1x1x512x512_0_5_0_0
  · exact piece_eq 2 4 4 1 (by omega) (by decide) (by decide) x0 _ _ _ rfl inb_S1x8x512x512_S1x1x512x512_0_4_0_0
  · exact piece_eq 2 3 4 0 (by omega) (by decide) (by decide) x0 _ _ _ rfl inb_S1x8x512x512_S1x1x512x512_0_3_0_0
  · exact piece_eq 2 2 3 4 (by omega) (by decide) (by decide) x0 _ _ _ rfl inb_S1x8x512x512_S1x1x512x512_0_2_0_0
  · exact piece_eq 2 1 3 3 (by omega) (by decide) (by decide) x0 _ _ _ rfl inb_S1x8x512x512_S1x1x512x512_0_1_0_0
  · exact piece_eq 2 0 3 2 (by omega) (by decide) (by decide) x0 _ _ _ rfl inb_S1x8x512x512_S1x1x512x512_0_0_0_0

end Cert.KernelIdeal.KValue

end
-- ==== Proof.KernelValue.lean ====
/-
  From blocks to the result array.

  Grid point t = 3·bc + g stages tile bc of the bordered stack and writes back block (bc, g) of the [12,24,512,512] result;
  what it writes is the block function of group g of its tile (the body overwrites the whole block at each point, nothing is
  carried between points). Tile bc read at (0, H, W) is the bordered stack at (bc, H, W), and block (bc, g) at
  (0, j, h, w) is the result at (bc, 8g + j, h, w); so every point's block is the restriction of ONE function `Gk` of the
  bordered stack, and the 36 blocks cover the result: index (bc, k, h, w) lies in the block of point 3·bc + k/8.
-/
import proofs.«158847_j1580547974542_1_alg».proof.Proof.KernelBlock
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.GaussSpec
open Idealize.ShloMosaic.Pipeline (Dat)

variable (m : (ℓ : Loc nD τ sig) → Buf (Elt Ideal) ℓ) (ρ : Dev nD → PrngReg)

/-- What the output's staging buffer holds after the body at point `t`: the block function of group t mod 3 of the point's
    bordered tile. The body overwrites the whole block at every point, so nothing is carried from point to point. -/
theorem outsAt_eq (c : Dev nD) (t : Fin cfg0.N) :
    outsAt0 (F := Ideal) m c t.val t.isLt = blockFn ⟨t.val % 3, Nat.mod_lt _ (by decide)⟩ (iblk m c 0 t) := by
  have hN : t.val < 36 := lt_of_lt_of_eq t.isLt (show cfg0.N = 36 from N_0)
  by_cases h0 : t.val % 3 = 0
  · rw [outsAt0_A m c t h0 (by omega) (by omega), out_A]
    exact congrArg (fun g => blockFn g (iblk m c 0 t)) (Fin.ext h0.symm)
  · by_cases h1 : t.val % 3 = 1
    · rw [outsAt0_B m c t h0 h1 (by omega), out_B]
      exact congrArg (fun g => blockFn g (iblk m c 0 t)) (Fin.ext h1.symm)
    · have h2 : t.val % 3 = 2 := by omega
      rw [outsAt0_C m c t h0 h1 h2, out_C]
      exact congrArg (fun g => blockFn g (iblk m c 0 t)) (Fin.ext h2.symm)

/-- The printed index maps over the grid: point t = 3·bc + g stages tile bc of the bordered stack, and writes back block
    (bc, g) of the result. -/
theorem idx_facts : ∀ t : Fin cfg0.N, win0_0.index t (0 : Fin 3) = t.val / 3 ∧ win0_0.index t (1 : Fin 3) = 0
    ∧ win0_0.index t (2 : Fin 3) = 0 ∧ win0_1.index t (0 : Fin 4) = t.val / 3 ∧ win0_1.index t (1 : Fin 4) = t.val % 3
    ∧ win0_1.index t (2 : Fin 4) = 0 ∧ win0_1.index t (3 : Fin 4) = 0 :=
  (by decide +kernel : ∀ t : Fin grid0.N, _)

/-- WHAT POINT `t` WRITES BACK is block `t` of `Gk` of the bordered stack as the region finds it. -/
theorem flushed_eq (c : Dev nD) (t : Fin cfg0.N) :
    (dats m 0 c).flushed 1 t = ((cfg0.win 1).blk t).view.read (Elt Ideal) (Gk (V m c main_v1)) := by
  show (cfg0.win 1).cut (grid0.coords t) ((dats m 0 c).after 1 t) = _
  rw [after0_1, outsAt_eq]
  obtain ⟨e0, e1, e2, e3, e4, e5, e6⟩ := idx_facts t
  funext y
  have hy0 : (y 0).val < 1 := (y 0).isLt
  have hy1 : (y 1).val < 8 := (y 1).isLt
  show blockFn ⟨t.val % 3, _⟩ (iblk m c 0 t) y = Gk (V m c main_v1) (((cfg0.win 1).blk t).view.emb y)
  unfold blockFn Gk iblk
  rw [View.read_apply, View.read_apply]
  have hk : 8 * (t.val % 3) + (y 1).val = win0_1.index t (1 : Fin 4) * 8 + 1 * (y 1).val := by rw [e4]; omega
  refine congrArg₂ weight (congrArg (V m c main_v1) ?_) (congrArg (V m c main_v1) ?_)
  · funext a
    apply Fin.ext
    match a with
    | ⟨0, _⟩ =>
      show win0_0.index t (0 : Fin 3) * 1 + 1 * 0 = win0_1.index t (0 : Fin 4) * 1 + 1 * (y 0).val
      omega
    | ⟨1, _⟩ =>
      show win0_0.index t (1 : Fin 3) * 516 + 1 * ((y 2).val + tapRow (8 * (t.val % 3) + (y 1).val))
        = (win0_1.index t (2 : Fin 4) * 512 + 1 * (y 2).val) + tapRow (win0_1.index t (1 : Fin 4) * 8 + 1 * (y 1).val)
      rw [hk]; omega
    | ⟨2, _⟩ =>
      show win0_0.index t (2 : Fin 3) * 516 + 1 * ((y 3).val + tapCol (8 * (t.val % 3) + (y 1).val))
        = (win0_1.index t (3 : Fin 4) * 512 + 1 * (y 3).val) + tapCol (win0_1.index t (1 : Fin 4) * 8 + 1 * (y 1).val)
      rw [hk]; omega
  · funext a
    apply Fin.ext
    match a with
    | ⟨0, _⟩ =>
      show win0_0.index t (0 : Fin 3) * 1 + 1 * 0 = win0_1.index t (0 : Fin 4) * 1 + 1 * (y 0).val
      omega
    | ⟨1, _⟩ =>
      show win0_0.index t (1 : Fin 3) * 516 + 1 * ((y 2).val + 2) = (win0_1.index t (2 : Fin 4) * 512 + 1 * (y 2).val) + 2
      omega
    | ⟨2, _⟩ =>
      show win0_0.index t (2 : Fin 3) * 516 + 1 * ((y 3).val + 2) = (win0_1.index t (3 : Fin 4) * 512 + 1 * (y 3).val) + 2
      omega

/-- An index of the result array is in point `t`'s block iff each coordinate is in the block's range on its axis. -/
theorem mem_blk (t : Fin cfg0.N) (i : S12x24x512x512.Idx) :
    i ∈ ((cfg0.win 1).blk t).view.set ↔ ∀ a : Fin 4, win0_1.index t a * S1x8x512x512.size a ≤ (i a).val
      ∧ (i a).val < win0_1.index t a * S1x8x512x512.size a + S1x8x512x512.size a := by
  show i ∈ ((View.whole main_v2).slice (win0_1.rect t)).set ↔ _
  rw [View.set_slice_whole, Rect.mem_set_unit]
  exact Iff.rfl

/-- THE RESULT ARRAY after the run is `Gk` of the bordered stack: index (bc, k, h, w) lies in the block that point
    3·bc + k/8 writes back. -/
theorem final (c : Dev nD) : (dats m 0 c).arrAt 1 cfg0.N = Gk (V m c main_v1) :=
  (dats m 0 c).arrAt_eq_of_cover 1 (Gk (V m c main_v1)) (fun t _ => flushed_eq m c t) (fun i => by
    have h0 : (i 0).val < 12 := (i 0).isLt
    have h1 : (i 1).val < 24 := (i 1).isLt
    have h2 : (i 2).val < 512 := (i 2).isLt
    have h3 : (i 3).val < 512 := (i 3).isLt
    let t : Fin cfg0.N := ⟨3 * (i 0).val + (i 1).val / 8, by rw [show cfg0.N = 36 from N_0]; omega⟩
    have ht : t.val = 3 * (i 0).val + (i 1).val / 8 := rfl
    obtain ⟨e0, e1, e2, e3, e4, e5, e6⟩ := idx_facts t
    refine ⟨t, flush0_1 t, ?_⟩
    rw [mem_blk]
    intro a
    match a with
    | ⟨0, _⟩ =>
      show win0_1.index t (0 : Fin 4) * 1 ≤ (i 0).val ∧ (i 0).val < win0_1.index t (0 : Fin 4) * 1 + 1
      omega
    | ⟨1, _⟩ =>
      show win0_1.index t (1 : Fin 4) * 8 ≤ (i 1).val ∧ (i 1).val < win0_1.index t (1 : Fin 4) * 8 + 8
      omega
    | ⟨2, _⟩ =>
      show win0_1.index t (2 : Fin 4) * 512 ≤ (i 2).val ∧ (i 2).val < win0_1.index t (2 : Fin 4) * 512 + 512
      omega
    | ⟨3, _⟩ =>
      show win0_1.index t (3 : Fin 4) * 512 ≤ (i 3).val ∧ (i 3).val < win0_1.index t (3 : Fin 4) * 512 + 512
      omega)

end Cert.KernelIdeal.KValue

end
-- ==== Proof.LibPadRead.lean ====
/-
  A StableHLO `pad` without interior padding, read at an index.

  With interior padding zero on every axis the padded array holds the operand shifted by the low padding, and the padding
  value around it: at an index whose every coordinate is `lo a + k a` for an operand index `k` it reads the operand at
  `k`; at an index with some coordinate below `lo a` or at least `lo a + (the operand's extent)` it reads the padding value.
  Any shapes, any element type; imports only the operations' definitions.
-/
import Idealize.ShloMosaic.PureOps.ShapeOps

namespace Idealize.ShloMosaic

variable {s t u : Shape} {α : Type}

/-- Inside the operand's image, a pad without interior padding reads the operand: result index `j` with
    `j a = lo a + k a` on every axis reads `x k`. -/
theorem pad_apply_inside (lo hi interior : Fin s.rank → Nat) (hint : ∀ a, interior a = 0) (x : s.Idx → α) (v : u.Idx → α)
    (h : s.Pads lo hi interior t) (hu : 0 < u.numel) (j : t.Idx) (k : s.Idx)
    (hk : ∀ a : Fin s.rank, (j (a.cast h.1)).val = lo a + (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := by
    intro a
    have hka := (k a).isLt
    rw [hint a, hk a]
    refine ⟨Nat.le_add_right _ _, Nat.mod_one _, ?_⟩
    rw [Nat.zero_add, Nat.div_one, Nat.add_sub_cancel_left]
    exact hka
  rw [dif_pos hin]
  refine congrArg x (funext fun a => Fin.ext ?_)
  show ((j (a.cast h.1)).val - lo a) / (interior a + 1) = (k a).val
  rw [hint a, hk a, Nat.zero_add, Nat.div_one, Nat.add_sub_cancel_left]

/-- Outside the operand's image, a pad without interior padding reads the padding value: some coordinate of `j` is below
    the low padding, or at or past the low padding plus the operand's extent. -/
theorem pad_apply_outside (lo hi interior : Fin s.rank → Nat) (hint : ∀ a, interior a = 0) (x : s.Idx → α) (v : u.Idx → α)
    (h : s.Pads lo hi interior t) (hu : 0 < u.numel) (j : t.Idx) (a : Fin s.rank)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint a, Nat.zero_add, Nat.div_one] at h3
  omega

end Idealize.ShloMosaic
-- ==== Proof.Merge.lean ====
/-
  Two arrangements of one computation.

  One program borders the [4,3,512,512] stack directly and reads the centre pixel from the stack; the other first merges
  the two leading axes into one of 12 images, borders that, computes over the merged axis reading the centre pixel from
  the bordered image's centre crop, and splits the leading axis again. Merging keeps row-major order, so image 3b + ch of
  the merged stack is image (b, ch); bordering acts on the two last axes only, so it commutes with the merge (inside the
  border both read the image, on the border both read the padding value); and the centre crop of a bordered image is the
  image. Hence the two results agree index by index — no arithmetic on the values is involved.
-/
import proofs.«158847_j1580547974542_1_alg».proof.Proof.Spec
import proofs.«158847_j1580547974542_1_alg».proof.Proof.LibPadRead
import Idealize.ShloMosaic.Lib.Pipeline.Value

noncomputable section

namespace Cert.GaussSpec

open Idealize.ShloMosaic Idealize.ShloMosaic.ValueIdx

variable (x : SX.Idx → EReal) (hm : SX.ShapeCasts SX12)

/-- Image 3b + ch of the merged stack is image (b, ch): the merge keeps row-major order. -/
theorem merged_apply (b : Fin 4) (ch : Fin 3) (h w : Fin 512) :
    shapeCast SX12 x hm (ix3 (⟨3 * b.val + ch.val, by omega⟩ : Fin 12) h w) = x (ix4 b ch h w) :=
  shapeCast_apply x hm _ _ (by
    rw [Shape.rowMajor_val_four, Shape.rowMajor_val_three]
    show ((b.val * 3 + ch.val) * 512 + h.val) * 512 + w.val = ((3 * b.val + ch.val) * 512 + h.val) * 512 + w.val
    omega)

variable {u : Shape} (z : u.Idx → EReal) (hu : 0 < u.numel)
  (hp12 : SX12.Pads ![0, 2, 2] ![0, 2, 2] ![0, 0, 0] SP12) (hp4 : SX.Pads ![0, 0, 2, 2] ![0, 0, 2, 2] ![0, 0, 0, 0] SP)

/-- BORDERING COMMUTES WITH MERGING the two leading axes: the merged stack bordered, at image 3b + ch, is the stack
    bordered at image (b, ch) — inside the border both read x, on the border both read the padding value. -/
theorem bordered_merged (b : Fin 4) (ch : Fin 3) (H W : Fin 516) :
    pad SP12 ![0, 2, 2] ![0, 2, 2] ![0, 0, 0] (shapeCast SX12 x hm) z hp12 hu (ix3 (⟨3 * b.val + ch.val, by omega⟩ : Fin 12) H W)
      = pad SP ![0, 0, 2, 2] ![0, 0, 2, 2] ![0, 0, 0, 0] x z hp4 hu (ix4 b ch H W) := by
  have i3 : ∀ a : Fin 3, (![0, 0, 0] : Fin 3 → ℕ) a = 0 := fun a => by fin_cases a <;> rfl
  have i4 : ∀ a : Fin 4, (![0, 0, 0, 0] : Fin 4 → ℕ) a = 0 := fun a => by fin_cases a <;> rfl
  by_cases hin : 2 ≤ H.val ∧ H.val < 514 ∧ 2 ≤ W.val ∧ W.val < 514
  · obtain ⟨h1, h2, h3, h4⟩ := hin
    rw [pad_apply_inside ![0, 2, 2] ![0, 2, 2] ![0, 0, 0] i3 (shapeCast SX12 x hm) z hp12 hu _
        (ix3 (⟨3 * b.val + ch.val, by omega⟩ : Fin 12) (⟨H.val - 2, by omega⟩ : Fin 512) (⟨W.val - 2, by omega⟩ : Fin 512))
        (fun a => match a with
          | ⟨0, _⟩ => by show 3 * b.val + ch.val = 0 + (3 * b.val + ch.val); omega
          | ⟨1, _⟩ => by show H.val = 2 + (H.val - 2); omega
          | ⟨2, _⟩ => by show W.val = 2 + (W.val - 2); omega),
      pad_apply_inside ![0, 0, 2, 2] ![0, 0, 2, 2] ![0, 0, 0, 0] i4 x z hp4 hu _
        (ix4 b ch (⟨H.val - 2, by omega⟩ : Fin 512) (⟨W.val - 2, by omega⟩ : Fin 512))
        (fun a => match a with
          | ⟨0, _⟩ => by show b.val = 0 + b.val; omega
          | ⟨1, _⟩ => by show ch.val = 0 + ch.val; omega
          | ⟨2, _⟩ => by show H.val = 2 + (H.val - 2); omega
          | ⟨3, _⟩ => by show W.val = 2 + (W.val - 2); omega)]
    exact merged_apply x hm b ch _ _
  · by_cases hH : 2 ≤ H.val ∧ H.val < 514
    · have hW : W.val < 2 ∨ 2 + 512 ≤ W.val := by omega
      rw [pad_apply_outside ![0, 2, 2] ![0, 2, 2] ![0, 0, 0] i3 (shapeCast SX12 x hm) z hp12 hu _ (2 : Fin 3) hW,
        pad_apply_outside ![0, 0, 2, 2] ![0, 0, 2, 2] ![0, 0, 0, 0] i4 x z hp4 hu _ (3 : Fin 4) hW]
    · have hH' : H.val < 2 ∨ 2 + 512 ≤ H.val := by omega
      rw [pad_apply_outside ![0, 2, 2] ![0, 2, 2] ![0, 0, 0] i3 (shapeCast SX12 x hm) z hp12 hu _ (1 : Fin 3) hH',
        pad_apply_outside ![0, 0, 2, 2] ![0, 0, 2, 2] ![0, 0, 0, 0] i4 x z hp4 hu _ (2 : Fin 4) hH']

/-- The bordered merged stack's centre crop is the image. -/
theorem bordered_centre (b : Fin 4) (ch : Fin 3) (h w : Fin 512) :
    pad SP12 ![0, 2, 2] ![0, 2, 2] ![0, 0, 0] (shapeCast SX12 x hm) z hp12 hu
        (ix3 (⟨3 * b.val + ch.val, by omega⟩ : Fin 12) (⟨h.val + 2, by omega⟩ : Fin 516) (⟨w.val + 2, by omega⟩ : Fin 516))
      = x (ix4 b ch h w) := by
  have i3 : ∀ a : Fin 3, (![0, 0, 0] : Fin 3 → ℕ) a = 0 := fun a => by fin_cases a <;> rfl
  rw [pad_apply_inside ![0, 2, 2] ![0, 2, 2] ![0, 0, 0] i3 (shapeCast SX12 x hm) z hp12 hu _
      (ix3 (⟨3 * b.val + ch.val, by omega⟩ : Fin 12) h w)
      (fun a => match a with
        | ⟨0, _⟩ => by show 3 * b.val + ch.val = 0 + (3 * b.val + ch.val); omega
        | ⟨1, _⟩ => by show h.val + 2 = 2 + h.val; omega
        | ⟨2, _⟩ => by show w.val + 2 = 2 + w.val; omega)]
  exact merged_apply x hm b ch h w

/-- THE KERNEL'S ARRANGEMENT IS THE SPECIFICATION: merge the leading axes, border, compute `Gk`, split the leading axis
    again — index by index this is `G` of the bordered stack and the stack. -/
theorem split_Gk_eq (hs : SK12.ShapeCasts SK) :
    shapeCast SK (Gk (pad SP12 ![0, 2, 2] ![0, 2, 2] ![0, 0, 0] (shapeCast SX12 x hm) z hp12 hu)) hs
      = G (pad SP ![0, 0, 2, 2] ![0, 0, 2, 2] ![0, 0, 0, 0] x z hp4 hu) x := by
  funext i
  obtain ⟨b, ch, k, h, w, rfl⟩ : ∃ (b : Fin 4) (ch : Fin 3) (k : Fin 24) (h w : Fin 512), i = ix5 b ch k h w :=
    ⟨i 0, i 1, i 2, i 3, i 4, eq_ix5 i⟩
  rw [G_ix5]
  refine (shapeCast_apply _ hs (ix5 b ch k h w) (ix4 (⟨3 * b.val + ch.val, by omega⟩ : Fin 12) k h w) (by
    rw [Shape.rowMajor_val_four, Shape.rowMajor_val_five]
    show (((3 * b.val + ch.val) * 24 + k.val) * 512 + h.val) * 512 + w.val
      = (((b.val * 3 + ch.val) * 24 + k.val) * 512 + h.val) * 512 + w.val
    omega)).trans ?_
  show weight (pad SP12 ![0, 2, 2] ![0, 2, 2] ![0, 0, 0] (shapeCast SX12 x hm) z hp12 hu (ix3 _ _ _))
    (pad SP12 ![0, 2, 2] ![0, 2, 2] ![0, 0, 0] (shapeCast SX12 x hm) z hp12 hu (ix3 _ _ _)) = _
  rw [bordered_merged x hm z hu hp12 hp4 b ch, bordered_centre x hm z hu hp12 b ch h w]
  rfl

end Cert.GaussSpec

end
-- ==== Proof.KernelRun.lean ====
/-
  The kernel program's run, read.

  Around the region the program merges the stack's two leading axes and borders it with the integer zero converted to a
  float (before), and splits the result's leading axis again (after). The region's result array is `Gk` of the bordered
  merged stack; the two arrangements' agreement (merge, border, compute, split = border, compute) turns the program's
  result into the specification `G` of the bordered stack and the stack.
-/
import proofs.«158847_j1580547974542_1_alg».proof.Proof.KernelValue
import proofs.«158847_j1580547974542_1_alg».proof.Proof.Merge
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.GaussSpec
open Idealize.ShloMosaic.Pipeline (Dat)

variable (m : (ℓ : Loc nD τ sig) → Buf (Elt Ideal) ℓ) (ρ : Dev nD → PrngReg)

/-- The border's value: the integer zero converted to f32. -/
abbrev borderValue : S_.Idx → EReal := sitofp (F := Ideal) .f32 (constantI S_ 32 0#32)

/-- The bordered stack as the region finds it: the argument with its leading axes merged, bordered by width 2 on its two
    last axes. -/
theorem V_v1 (c : Dev nD) : (V m c main_v1 : S12x516x516.Idx → EReal)
    = pad S12x516x516 ![0, 2, 2] ![0, 2, 2] ![0, 0, 0]
        (shapeCast S12x512x512 (m ((c : Thread nD τ).loc main_arg0)) shapeCasts_S4x3x512x512_S12x512x512)
        borderValue pads_S12x512x512_S12x516x516_000_220_220 h_S_ := by
  dsimp only [V, V0]
  simp only [hostOps0, hostOps0_1, List.flatten_cons, List.flatten_nil, List.append_nil, List.cons_append, List.nil_append]
  after_results
  rfl

/-- The program's result: the region's result array with its leading axis split into (4, 3). -/
theorem tail_v3 (c : Dev nD) :
    (Pipeline.afterTail₀ cfgs (dats m) 0 (V0 m) [hostOps1] c main_v3 : S4x3x24x512x512.Idx → EReal)
      = shapeCast S4x3x24x512x512 (Gk (V m c main_v1)) shapeCasts_S12x24x512x512_S4x3x24x512x512 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = Gk (V m c main_v1) :=
    (Pipeline.withArrays_arr spec0 launch0.win.arr_inj c (V0 m c) (fun w => (dats m 0 c).arrAt w cfg0.N) 1).trans (final m c)
  exact congrArg (fun A : S12x24x512x512.Idx → EReal =>
    shapeCast S4x3x24x512x512 A shapeCasts_S12x24x512x512_S4x3x24x512x512) e

/-- THE RUN, READ: every weakly fair execution of the kernel program terminates with its result at the specification of
    the bordered stack and the stack, and its argument unchanged. -/
theorem run (hp4 : SX.Pads ![0, 0, 2, 2] ![0, 0, 2, 2] ![0, 0, 0, 0] SP) :
    θ_run defs (onTc (τ := τ) (main (F := Ideal))) ⟨m, fun _ => 0, ρ⟩ (fun r => ∀ c : Dev nD,
      r.2.mem ((c : Thread nD τ).loc main_v3)
        = G (pad SP ![0, 0, 2, 2] ![0, 0, 2, 2] ![0, 0, 0, 0] (m ((c : Thread nD τ).loc main_arg0)) borderValue hp4 h_S_)
            (m ((c : Thread nD τ).loc main_arg0))
      ∧ r.2.mem ((c : Thread nD τ).loc main_arg0) = m ((c : Thread nD τ).loc main_arg0)) :=
  (θ_run defs _ _).mono (fun r h c =>
    ⟨((h c).2 main_v3 (Pipeline.mem_restRefs_of main_v3 (by decide) (by decide))).trans ((tail_v3 m c).trans (by
        rw [V_v1]
        exact split_Gk_eq _ _ _ _ _ hp4 _)),
      ((h c).2 main_arg0 (Pipeline.mem_restRefs_of main_arg0 (by decide) (by decide))).trans (W_main_arg0 m (dats m) c)⟩)
    (run_main m ρ)

end Cert.KernelIdeal.KValue

end
-- ==== Proof.RefRead.lean ====
/-
  The reference, read at an index, is the specification.

  The reference builds the bordered image once, takes its 24 shifted 512×512 windows (one per tap), gives each a unit axis,
  stacks the first sixteen and the last eight along that axis and joins the two stacks; it then subtracts the image
  (broadcast along the tap axis), squares, negates, halves and exponentiates. Read at (b, ch, k, h, w): the stack picks
  window k, which reads the bordered image at (h + row k, w + col k); the broadcast image reads x at (b, ch, h, w).
-/
import proofs.«158847_j1580547974542_1_alg».proof.Proof.Gen.ReferenceIdeal.Read
import proofs.«158847_j1580547974542_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.GaussSpec
open Idealize.ShloMosaic Idealize.ShloMosaic.ValueIdx

/-- A 512×512 window of the bordered image at offset (r, c) with r, c ≤ 4 fits inside it. -/
theorem window_fits (r c : ℕ) (hr : r < 5) (hc : c < 5) : S4x3x516x516.Slices ![0, 0, r, c] S4x3x512x512 :=
  ⟨rfl, fun a => match a with
    | ⟨0, _⟩ => by show 0 + 4 ≤ 4; omega
    | ⟨1, _⟩ => by show 0 + 3 ≤ 3; omega
    | ⟨2, _⟩ => by show r + 512 ≤ 516; omega
    | ⟨3, _⟩ => by show c + 512 ≤ 516; omega⟩

/-- One tap's stage: the window of the bordered image `P` at offset (r, c), with a unit axis added in position 2. -/
def tapStage (P : FVec Ideal S4x3x516x516 .f32) (r c : ℕ) (hs : S4x3x516x516.Slices ![0, 0, r, c] S4x3x512x512) :
    FVec Ideal S4x3x1x512x512 .f32 :=
  broadcastInDim S4x3x1x512x512 ![0, 1, 3, 4] bcast_S4x3x512x512_S4x3x1x512x512_0_1_3_4
    (extractStridedSlice S4x3x512x512 ![0, 0, r, c] P hs)

/-- It reads, at (b, ch, 0, h, w), the bordered image at (b, ch, r + h, c + w). -/
theorem tapStage_apply (P : FVec Ideal S4x3x516x516 .f32) (r c : ℕ) (hs : S4x3x516x516.Slices ![0, 0, r, c] S4x3x512x512)
    (b : Fin 4) (ch : Fin 3) (h w : Fin 512) (H W : Fin 516) (hH : H.val = r + h.val) (hW : W.val = c + w.val) :
    tapStage P r c hs (ix5 b ch (0 : Fin 1) h w) = P (ix4 b ch H W) := by
  unfold tapStage
  refine (broadcastInDim_apply _ bcast_S4x3x512x512_S4x3x1x512x512_0_1_3_4 _ (ix5 b ch (0 : Fin 1) h w) (ix4 b ch h w)
    (fun a => match a with
      | ⟨0, _⟩ => by show b.val = if (4 : Nat) = 1 then 0 else b.val; rw [if_neg (by decide)]
      | ⟨1, _⟩ => by show ch.val = if (3 : Nat) = 1 then 0 else ch.val; rw [if_neg (by decide)]
      | ⟨2, _⟩ => by show h.val = if (512 : Nat) = 1 then 0 else h.val; rw [if_neg (by decide)]
      | ⟨3, _⟩ => by show w.val = if (512 : Nat) = 1 then 0 else w.val; rw [if_neg (by decide)])).trans ?_
  exact extractStridedSlice_apply ![0, 0, r, c] P hs (ix4 b ch h w) (ix4 b ch H W) (fun a => match a with
    | ⟨0, _⟩ => by show b.val = 0 + b.val; omega
    | ⟨1, _⟩ => by show ch.val = 0 + ch.val; omega
    | ⟨2, _⟩ => hH
    | ⟨3, _⟩ => hW)

variable (x : FVec Ideal S4x3x512x512 .f32)

/-- The first sixteen tap stages and the last eight, as tables over the tap number. -/
def stack16 : Fin 16 → FVec Ideal S4x3x1x512x512 .f32 :=
  ![val_main_v25 (F := Ideal) x, val_main_v26 (F := Ideal) x, val_main_v27 (F := Ideal) x, val_main_v28 (F := Ideal) x, val_main_v29 (F := Ideal) x, val_main_v30 (F := Ideal) x, val_main_v31 (F := Ideal) x, val_main_v32 (F := Ideal) x, val_main_v33 (F := Ideal) x, val_main_v34 (F := Ideal) x, val_main_v35 (F := Ideal) x, val_main_v36 (F := Ideal) x, val_main_v37 (F := Ideal) x, val_main_v38 (F := Ideal) x, val_main_v39 (F := Ideal) x, val_main_v40 (F := Ideal) x]
def stack8 : Fin 8 → FVec Ideal S4x3x1x512x512 .f32 :=
  ![val_main_v41 (F := Ideal) x, val_main_v42 (F := Ideal) x, val_main_v43 (F := Ideal) x, val_main_v44 (F := Ideal) x, val_main_v45 (F := Ideal) x, val_main_v46 (F := Ideal) x, val_main_v47 (F := Ideal) x, val_main_v48 (F := Ideal) x]

/-- Entry n of the first table is the tap stage of tap n: the printed windows follow the stencil in row-major order with
    the centre left out. -/
theorem stack16_eq : ∀ (n : Fin 16) (hs : S4x3x516x516.Slices ![0, 0, tapRow n.val, tapCol n.val] S4x3x512x512),
    stack16 x n = tapStage (val_main_v0 (F := Ideal) x) (tapRow n.val) (tapCol n.val) hs := by
  intro n
  fin_cases n <;> intro hs <;> rfl

/-- Entry n of the second table is the tap stage of tap 16 + n. -/
theorem stack8_eq : ∀ (n : Fin 8) (hs : S4x3x516x516.Slices ![0, 0, tapRow (16 + n.val), tapCol (16 + n.val)] S4x3x512x512),
    stack8 x n = tapStage (val_main_v0 (F := Ideal) x) (tapRow (16 + n.val)) (tapCol (16 + n.val)) hs := by
  intro n
  fin_cases n <;> intro hs <;> rfl

/-- The stack of the first sixteen, read at (b, ch, n, h, w): the bordered image under tap n. -/
theorem v49_apply (b : Fin 4) (ch : Fin 3) (n : Fin 16) (h w : Fin 512) :
    val_main_v49 (F := Ideal) x (ix5 b ch n h w)
      = val_main_v0 (F := Ideal) x (nbr b ch ⟨n.val, by omega⟩ h w) := by
  have e : val_main_v49 (F := Ideal) x (ix5 b ch n h w) = stack16 x n (ix5 b ch (0 : Fin 1) h w) :=
    concatenate_ofFn_unit_apply (t := S4x3x16x512x512) (s₁ := S4x3x1x512x512) (2 : Fin 5) (stack16 x)
      concatenates_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x1x512x512_S4x3x16x512x512_d2
      rfl rfl (ix5 b ch n h w) n rfl (ix5 b ch (0 : Fin 1) h w) (fun a ha => match a with
        | ⟨0, _⟩ => rfl
        | ⟨1, _⟩ => rfl
        | ⟨2, _⟩ => absurd rfl ha
        | ⟨3, _⟩ => rfl
        | ⟨4, _⟩ => rfl)
  have hn : n.val < 24 := by omega
  rw [e, stack16_eq x n (window_fits _ _ (tapRow_lt hn) (tapCol_lt _))]
  exact tapStage_apply _ _ _ _ b ch h w _ _ (Nat.add_comm _ _) (Nat.add_comm _ _)

/-- The stack of the last eight, read at (b, ch, n, h, w): the bordered image under tap 16 + n. -/
theorem v50_apply (b : Fin 4) (ch : Fin 3) (n : Fin 8) (h w : Fin 512) :
    val_main_v50 (F := Ideal) x (ix5 b ch n h w)
      = val_main_v0 (F := Ideal) x (nbr b ch ⟨16 + n.val, by omega⟩ h w) := by
  have e : val_main_v50 (F := Ideal) x (ix5 b ch n h w) = stack8 x n (ix5 b ch (0 : Fin 1) h w) :=
    concatenate_ofFn_unit_apply (t := S4x3x8x512x512) (s₁ := S4x3x1x512x512) (2 : Fin 5) (stack8 x)
      concatenates_S4x3x1x512x512_S4x3x1x512x512_S4x3x1x512x512_S4x3x1x512x512_S4x3x1x512x512_S4x3x1x512x512_S4x3x1x512x512_S4x3x1x512x512_S4x3x8x512x512_d2
      rfl rfl (ix5 b ch n h w) n rfl (ix5 b ch (0 : Fin 1) h w) (fun a ha => match a with
        | ⟨0, _⟩ => rfl
        | ⟨1, _⟩ => rfl
        | ⟨2, _⟩ => absurd rfl ha
        | ⟨3, _⟩ => rfl
        | ⟨4, _⟩ => rfl)
  have hn : 16 + n.val < 24 := by omega
  rw [e, stack8_eq x n (window_fits _ _ (tapRow_lt hn) (tapCol_lt _))]
  exact tapStage_apply _ _ _ _ b ch h w _ _ (Nat.add_comm _ _) (Nat.add_comm _ _)

/-- The two stacks joined, read at (b, ch, k, h, w): the bordered image under tap k. -/
theorem v51_apply (b : Fin 4) (ch : Fin 3) (k : Fin 24) (h w : Fin 512) :
    val_main_v51 (F := Ideal) x (ix5 b ch k h w) = val_main_v0 (F := Ideal) x (nbr b ch k h w) := by
  unfold val_main_v51
  by_cases hk : k.val < 16
  · refine (concatenate_pair_apply_left (t := S4x3x24x512x512) (s₁ := S4x3x16x512x512) (s₂ := S4x3x8x512x512) (2 : Fin 5)
      (val_main_v49 (F := Ideal) x) (val_main_v50 (F := Ideal) x) concatenates_S4x3x16x512x512_S4x3x8x512x512_S4x3x24x512x512_d2
      (ix5 b ch k h w) rfl (ix5 b ch (⟨k.val, hk⟩ : Fin 16) h w) (fun a => match a with
        | ⟨0, _⟩ => rfl
        | ⟨1, _⟩ => rfl
        | ⟨2, _⟩ => rfl
        | ⟨3, _⟩ => rfl
        | ⟨4, _⟩ => rfl)).trans ?_
    exact v49_apply x b ch ⟨k.val, hk⟩ h w
  · have hk8 : k.val - 16 < 8 := by have := k.isLt; omega
    refine (concatenate_pair_apply_right (t := S4x3x24x512x512) (s₁ := S4x3x16x512x512) (s₂ := S4x3x8x512x512) (2 : Fin 5)
      (val_main_v49 (F := Ideal) x) (val_main_v50 (F := Ideal) x) concatenates_S4x3x16x512x512_S4x3x8x512x512_S4x3x24x512x512_d2
      (ix5 b ch k h w) rfl rfl (ix5 b ch (⟨k.val - 16, hk8⟩ : Fin 8) h w) (fun a ha => match a with
        | ⟨0, _⟩ => rfl
        | ⟨1, _⟩ => rfl
        | ⟨2, _⟩ => absurd rfl ha
        | ⟨3, _⟩ => rfl
        | ⟨4, _⟩ => rfl) ?_).trans ?_
    · show k.val - 16 + 16 = k.val
      omega
    · have e := v50_apply x b ch ⟨k.val - 16, hk8⟩ h w
      have hk' : (⟨16 + (k.val - 16), by omega⟩ : Fin 24) = k := Fin.ext (by show 16 + (k.val - 16) = k.val; omega)
      rw [hk'] at e
      exact e

/-- THE REFERENCE IS THE SPECIFICATION: its result, index by index, is the weight of the bordered image under the tap
    against the centre pixel. -/
theorem ref_eq : val_main_v59 (F := Ideal) x = G (val_main_v0 (F := Ideal) x) x := by
  funext i
  obtain ⟨b, ch, k, h, w, rfl⟩ : ∃ (b : Fin 4) (ch : Fin 3) (k : Fin 24) (h w : Fin 512), i = ix5 b ch k h w :=
    ⟨i 0, i 1, i 2, i 3, i 4, eq_ix5 i⟩
  rw [G_ix5]
  have e53 : val_main_v53 (F := Ideal) x (ix5 b ch k h w) = x (ix4 b ch h w) := by
    rw [val_main_v53_apply, val_main_v52_apply]
    exact congrArg x (funext fun a => match a with
      | ⟨0, _⟩ => rfl
      | ⟨1, _⟩ => rfl
      | ⟨2, _⟩ => rfl
      | ⟨3, _⟩ => rfl)
  have e57 : val_main_v57 (F := Ideal) (ix5 b ch k h w) = Ideal.ofBits .f32 0x3F000000#32 := by
    rw [val_main_v57_apply]; rfl
  show Ideal.exp (-((val_main_v51 (F := Ideal) x (ix5 b ch k h w) - val_main_v53 (F := Ideal) x (ix5 b ch k h w))
      * (val_main_v51 (F := Ideal) x (ix5 b ch k h w) - val_main_v53 (F := Ideal) x (ix5 b ch k h w)))
      * val_main_v57 (F := Ideal) (ix5 b ch k h w)) = _
  rw [v51_apply, e53, e57]
  rfl

end Cert.ReferenceIdeal.RefValue

end
-- ==== Proof.lean ====
/-
  Gaussian neighbourhood weights: a kernel against its array-language reference, over the extended reals.

  For an image stack x : [4,3,512,512] bordered by width 2 on its two last axes, and the 24 taps of a 5×5 stencil without
  its centre, both programs compute, at (b, ch, k, h, w),  exp(-(x̄(b,ch,h+row k,w+col k) - x(b,ch,h,w))² · ½),  x̄ the
  bordered stack. The reference does it in one piece: it borders the stack, stacks the 24 shifted windows along a new axis,
  subtracts the stack, squares, negates, halves, exponentiates. The kernel merges the two leading axes (12 images), borders,
  and runs a grid of 12 × 3 points: point (bc, g) holds the bordered tile of image bc and writes the eight taps 8g … 8g+7
  into block (bc, g) of a [12,24,512,512] result, reading the centre pixel from the tile's centre crop and negating as
  `0 - ·`; the leading axis is split again afterwards.

  The two agree index by index (module Spec states the common function; RefRead reads the reference at an index, KernelBlock
  and KernelValue read the kernel's blocks and assemble the result array, Merge shows that bordering commutes with merging
  the leading axes and that the bordered tile's centre crop is the image, KernelRun joins them along the program's run). The
  only law on values is `0 - y = -y`, true of every extended real, so finiteness of the input is never used. The idealization
  of the kernel rewrote nothing, so it is preserved trivially; the three frames are the generated ones, the reference's being
  its generated run with the result dropped.
-/
import proofs.«158847_j1580547974542_1_alg».proof.Defs
import proofs.«158847_j1580547974542_1_alg».proof.Proof.Gen.Kernel
import proofs.«158847_j1580547974542_1_alg».proof.Proof.Gen.Kernel.Skeleton
import proofs.«158847_j1580547974542_1_alg».proof.Proof.Gen.Kernel.Launch
import proofs.«158847_j1580547974542_1_alg».proof.Proof.Gen.Kernel.Points
import proofs.«158847_j1580547974542_1_alg».proof.Proof.Gen.Kernel.Frame
import proofs.«158847_j1580547974542_1_alg».proof.Proof.Gen.KernelIdeal
import proofs.«158847_j1580547974542_1_alg».proof.Proof.Gen.KernelIdeal.Skeleton
import proofs.«158847_j1580547974542_1_alg».proof.Proof.Gen.KernelIdeal.Launch
import proofs.«158847_j1580547974542_1_alg».proof.Proof.Gen.KernelIdeal.Points
import proofs.«158847_j1580547974542_1_alg».proof.Proof.Gen.KernelIdeal.Frame
import proofs.«158847_j1580547974542_1_alg».proof.Proof.Gen.ReferenceIdeal
import proofs.«158847_j1580547974542_1_alg».proof.Proof.Gen.Pre_finite_inputs
import proofs.«158847_j1580547974542_1_alg».proof.Proof.Gen.ReferenceIdeal.Run
import proofs.«158847_j1580547974542_1_alg».proof.Proof.Gen.ReferenceIdeal.Read
import proofs.«158847_j1580547974542_1_alg».proof.Proof.KernelRun
import proofs.«158847_j1580547974542_1_alg».proof.Proof.RefRead
import Idealize.ShloMosaic.Adequacy
import Idealize.ShloMosaic.Init

noncomputable section

namespace Cert.Proof

open Idealize.ShloMosaic Idealize.ShloMosaic.TcCoe Idealize.SL.Sem Cert.GaussSpec

/-- The kernel program runs and keeps its argument: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its argument: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the stack, both idealized programs end with the specification of the bordered stack and
    the stack: the kernel by its run read through its blocks, the reference by its run read at an index. -/
theorem algebraic : Cert.algebraic_KernelIdeal_ReferenceIdeal := by
  intro m ρ m' ρ' _ hagree
  refine ⟨fun c => G (Cert.ReferenceIdeal.Read.val_main_v0 (F := Ideal)
      (m ((c : Thread Cert.KernelIdeal.nD Cert.KernelIdeal.τ).loc Cert.KernelIdeal.main_arg0)))
      (m ((c : Thread Cert.KernelIdeal.nD Cert.KernelIdeal.τ).loc Cert.KernelIdeal.main_arg0)),
    Cert.KernelIdeal.KValue.run m ρ _, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
